-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x64 : Shape := ⟨2, ![10000, 64]⟩
abbrev S10000x128 : Shape := ⟨2, ![10000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x64, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x64, .f32⟩
  | .hbm, ⟨96, _⟩ => ⟨S1700000x1, .f32⟩
  | .hbm, ⟨97, _⟩ => ⟨S1700000x64, .f32⟩
  | .hbm, ⟨98, _⟩ => ⟨S1700000x64, .f32⟩
  | .hbm, ⟨99, _⟩ => ⟨S_, .f32⟩
  | .hbm, ⟨100, _⟩ => ⟨S100000x64, .f32⟩
  | .hbm, ⟨101, _⟩ => ⟨S1700000x1, .i32⟩
  | .hbm, ⟨102, _⟩ => ⟨S100000x64, .f32⟩
  | .hbm, ⟨103, _⟩ => ⟨S1x64, .f32⟩
  | .hbm, ⟨104, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x64, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named. The program is six pipelines among stretches of host
  operations; its buffer contents at the return are the last stage of a fold through those twelve segments from the
  launch memory. Every weakly fair execution terminates, without a fault, with the result buffer at that last stage's
  contents and the eight argument arrays as launched.
-/
import proofs.«122126_j65240553226643_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the twelve segments, read at the result buffer as well as at the arguments: at the return
    every unscoped buffer holds the fold's last stage, the result buffer among them. -/
theorem run_fold : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Val

end
-- ==== Proof.MatmulPoint.lean ====
/-
  The three dense products of the network, one grid point at a time. Each matmul kernel loads a block of 10000 rows
  of the activations and the whole weight matrix, narrows both to bf16, and multiplies them into a zero accumulator.
  Read on the extended reals the narrowing is the identity and the product's entry (r, c) is the exact sum over the
  contracted axis of block(r, k) · weight(k, c).
-/
import proofs.«122126_j65240553226643_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Point

open Cert.KernelIdeal Cert.KernelIdeal.Gen Idealize.ShloMosaic Idealize.ShloMosaic.TcCoe

/-! ## The product of pipeline 0: a [10000, 64] block of rows times the whole [64, ·] weight -/

theorem lhs0_row (j : S10000x128.Idx) (q : dot_S10000x64_S64x128_S10000x128_1_0_0_1_n_n.contr.Idx) : (dot_S10000x64_S64x128_S10000x128_1_0_0_1_n_n.lhsIdx j q 0).val = (j 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs0_contr (j : S10000x128.Idx) (q : dot_S10000x64_S64x128_S10000x128_1_0_0_1_n_n.contr.Idx) : (dot_S10000x64_S64x128_S10000x128_1_0_0_1_n_n.lhsIdx j q 1).val = (q ⟨0, by decide⟩).val :=
  dot_S10000x64_S64x128_S10000x128_1_0_0_1_n_n.lhsIdx_val_of_single rfl j q
theorem rhs0_contr (j : S10000x128.Idx) (q : dot_S10000x64_S64x128_S10000x128_1_0_0_1_n_n.contr.Idx) : (dot_S10000x64_S64x128_S10000x128_1_0_0_1_n_n.rhsIdx j q 0).val = (q ⟨0, by decide⟩).val :=
  dot_S10000x64_S64x128_S10000x128_1_0_0_1_n_n.rhsIdx_val_of_single rfl j q
theorem rhs0_col (j : S10000x128.Idx) (q : dot_S10000x64_S64x128_S10000x128_1_0_0_1_n_n.contr.Idx) : (dot_S10000x64_S64x128_S10000x128_1_0_0_1_n_n.rhsIdx j q 1).val = (j 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- Entry (row of `j`, `k`) of the left block. -/
abbrev left0 (j : S10000x128.Idx) (k : Fin 64) : S10000x64.Idx := fun a => match a with
  | ⟨0, _⟩ => ⟨(j 0).val, (j 0).isLt⟩
  | ⟨1, _⟩ => ⟨k.val, k.isLt⟩
/-- Entry (`k`, column of `j`) of the weight. -/
abbrev right0 (j : S10000x128.Idx) (k : Fin 64) : S64x128.Idx := fun a => match a with
  | ⟨0, _⟩ => ⟨k.val, k.isLt⟩
  | ⟨1, _⟩ => ⟨(j 1).val, (j 1).isLt⟩

/-- On the extended reals the body's stored value at (r, c) is the plain sum over `k` of block(r, k) · weight(k, c):
    the two narrowings to bf16 are the identity and the accumulator starts at zero. -/
theorem k0_pay1_apply (x0 : Vec Ideal S10000x64 .f32) (x1 : Vec Ideal S64x128 .f32) (j : S10000x128.Idx) :
    k0_pay1 (F := Ideal) x0 x1 j = ∑ k : Fin 64, x0 (left0 j k) * x1 (right0 j k) := by
  unfold k0_pay1
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx j ((ValueIdx.contrEquiv1 dot_S10000x64_S64x128_S10000x128_1_0_0_1_n_n 64 rfl rfl).symm k) = left0 j k := funext fun a => Fin.ext (by
    match a with
    | ⟨0, _⟩ => exact lhs0_row _ _
    | ⟨1, _⟩ => exact (lhs0_contr _ _).trans hk)
  have er : dot_S10000x64_S64x128_S10000x128_1_0_0_1_n_n.rhsIdx j ((ValueIdx.contrEquiv1 dot_S10000x64_S64x128_S10000x128_1_0_0_1_n_n 64 rfl rfl).symm k) = right0 j k := funext fun a => Fin.ext (by
    match a with
    | ⟨0, _⟩ => exact (rhs0_contr _ _).trans hk
    | ⟨1, _⟩ => exact rhs0_col _ _)
  rw [el, er]
  rfl

/-! ## The product of pipeline 2: a [10000, 128] block of rows times the whole [128, ·] weight -/

theorem lhs2_row (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs2_contr (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem rhs2_contr (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem rhs2_col (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (row of `j`, `k`) of the left block. -/
abbrev left2 (j : S10000x128.Idx) (k : Fin 128) : S10000x128.Idx := fun a => match a with
  | ⟨0, _⟩ => ⟨(j 0).val, (j 0).isLt⟩
  | ⟨1, _⟩ => ⟨k.val, k.isLt⟩
/-- Entry (`k`, column of `j`) of the weight. -/
abbrev right2 (j : S10000x128.Idx) (k : Fin 128) : S128x128.Idx := fun a => match a with
  | ⟨0, _⟩ => ⟨k.val, k.isLt⟩
  | ⟨1, _⟩ => ⟨(j 1).val, (j 1).isLt⟩

/-- On the extended reals the body's stored value at (r, c) is the plain sum over `k` of block(r, k) · weight(k, c):
    the two narrowings to bf16 are the identity and the accumulator starts at zero. -/
theorem k2_pay1_apply (x0 : Vec Ideal S10000x128 .f32) (x1 : Vec Ideal S128x128 .f32) (j : S10000x128.Idx) :
    k2_pay1 (F := Ideal) x0 x1 j = ∑ k : Fin 128, x0 (left2 j k) * x1 (right2 j k) := by
  unfold k2_pay1
  simp only [matmul]
  rw [shapeCast_self]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = left2 j k := funext fun a => Fin.ext (by
    match a with
    | ⟨0, _⟩ => exact lhs2_row _ _
    | ⟨1, _⟩ => exact (lhs2_contr _ _).trans hk)
  have er : dot_S10000x128_S128x128_S10000x128_1_0_0_1_n_n.rhsIdx j ((ValueIdx.contrEquiv1 dot_S10000x128_S128x128_S10000x128_1_0_0_1_n_n 128 rfl rfl).symm k) = right2 j k := funext fun a => Fin.ext (by
    match a with
    | ⟨0, _⟩ => exact (rhs2_contr _ _).trans hk
    | ⟨1, _⟩ => exact rhs2_col _ _)
  rw [el, er]
  rfl

/-! ## The product of pipeline 4: a [10000, 128] block of rows times the whole [128, ·] weight -/

theorem lhs4_row (j : S10000x64.Idx) (q : dot_S10000x128_S128x64_S10000x64_1_0_0_1_n_n.contr.Idx) : (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs4_contr (j : S10000x64.Idx) (q : dot_S10000x128_S128x64_S10000x64_1_0_0_1_n_n.contr.Idx) : (dot_S10000x128_S128x64_S10000x64_1_0_0_1_n_n.lhsIdx j q 1).val = (q ⟨0, by decide⟩).val :=
  dot_S10000x128_S128x64_S10000x64_1_0_0_1_n_n.lhsIdx_val_of_single rfl j q
theorem rhs4_contr (j : S10000x64.Idx) (q : dot_S10000x128_S128x64_S10000x64_1_0_0_1_n_n.contr.Idx) : (dot_S10000x128_S128x64_S10000x64_1_0_0_1_n_n.rhsIdx j q 0).val = (q ⟨0, by decide⟩).val :=
  dot_S10000x128_S128x64_S10000x64_1_0_0_1_n_n.rhsIdx_val_of_single rfl j q
theorem rhs4_col (j : S10000x64.Idx) (q : dot_S10000x128_S128x64_S10000x64_1_0_0_1_n_n.contr.Idx) : (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (row of `j`, `k`) of the left block. -/
abbrev left4 (j : S10000x64.Idx) (k : Fin 128) : S10000x128.Idx := fun a => match a with
  | ⟨0, _⟩ => ⟨(j 0).val, (j 0).isLt⟩
  | ⟨1, _⟩ => ⟨k.val, k.isLt⟩
/-- Entry (`k`, column of `j`) of the weight. -/
abbrev right4 (j : S10000x64.Idx) (k : Fin 128) : S128x64.Idx := fun a => match a with
  | ⟨0, _⟩ => ⟨k.val, k.isLt⟩
  | ⟨1, _⟩ => ⟨(j 1).val, (j 1).isLt⟩

/-- On the extended reals the body's stored value at (r, c) is the plain sum over `k` of block(r, k) · weight(k, c):
    the two narrowings to bf16 are the identity and the accumulator starts at zero. -/
theorem k4_pay1_apply (x0 : Vec Ideal S10000x128 .f32) (x1 : Vec Ideal S128x64 .f32) (j : S10000x64.Idx) :
    k4_pay1 (F := Ideal) x0 x1 j = ∑ k : Fin 128, x0 (left4 j k) * x1 (right4 j k) := by
  unfold k4_pay1
  simp only [matmul]
  rw [shapeCast_self]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = left4 j k := funext fun a => Fin.ext (by
    match a with
    | ⟨0, _⟩ => exact lhs4_row _ _
    | ⟨1, _⟩ => exact (lhs4_contr _ _).trans hk)
  have er : dot_S10000x128_S128x64_S10000x64_1_0_0_1_n_n.rhsIdx j ((ValueIdx.contrEquiv1 dot_S10000x128_S128x64_S10000x64_1_0_0_1_n_n 128 rfl rfl).symm k) = right4 j k := funext fun a => Fin.ext (by
    match a with
    | ⟨0, _⟩ => exact (rhs4_contr _ _).trans hk
    | ⟨1, _⟩ => exact rhs4_col _ _)
  rw [el, er]
  rfl

end Cert.KernelIdeal.Point

end
-- ==== Proof.MatmulRegion0.lean ====
/-
  From blocks to the array, for one matmul pipeline. The grid has ten points; point t stages rows
  [10000·t, 10000·t + 10000) of the activations and the whole weight, and writes back the same rows of the output.
  Each written block is the restriction of ONE whole-array function, the product entry by entry, and the ten
  blocks tile the output, so after the region the output array is that product of the arrays the region found.
-/
import proofs.«122126_j65240553226643_1_alg».proof.Proof.MatmulPoint
import proofs.«122126_j65240553226643_1_alg».proof.Proof.Gen.KernelIdeal.Frame
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## Pipeline 0: main_v30 = main_arg0 · main_arg2, ten blocks of 10000 rows -/

/-- Entry (row of `i`, `k`) of the activations. -/
abbrev Left0 (i : S100000x128.Idx) (k : Fin 64) : S100000x64.Idx := fun a => match a with
  | ⟨0, _⟩ => ⟨(i 0).val, (i 0).isLt⟩
  | ⟨1, _⟩ => ⟨k.val, k.isLt⟩
/-- Entry (`k`, column of `i`) of the weight. -/
abbrev Right0 (i : S100000x128.Idx) (k : Fin 64) : S64x128.Idx := fun a => match a with
  | ⟨0, _⟩ => ⟨k.val, k.isLt⟩
  | ⟨1, _⟩ => ⟨(i 1).val, (i 1).isLt⟩

/-- The whole product, entry by entry: the sum over the contracted axis of activation(r, k) · weight(k, c). -/
def product0 (X : (⟨S100000x64, .f32⟩ : BufTy).Contents (Elt Ideal)) (Wt : (⟨S64x128, .f32⟩ : BufTy).Contents (Elt Ideal)) :
    (⟨S100000x128, .f32⟩ : BufTy).Contents (Elt Ideal) :=
  fun i => ∑ k : Fin 64, X (Left0 i k) * Wt (Right0 i k)

/-- The printed index maps over the ten grid points: the activation block moves with the output block down the
    rows, the weight's block never moves, and nothing moves along the columns. -/
theorem maps0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem onto0 : ∀ q : Fin 10, ∃ t : Fin cfg0.N, win0_2.index t = ![q.val, 0] :=
  (by decide +kernel : ∀ q : Fin 10, ∃ t : Fin grid0.N, win0_2.index t = ![q.val, 0])

/-- What point `t` writes back is block `t` of the whole product of the arrays the region finds. -/
theorem flushed0_eq (c : Dev nD) (t : Fin cfg0.N) :
    (dat0 V c).flushed 2 t = ((cfg0.win 2).blk t).view.read (Elt Ideal) (product0 (V c main_arg0) (V c main_arg2)) := by
  show (cfg0.win 2).cut (grid0.coords t) ((dat0 V c).after 2 t) = _
  rw [after0_2]
  unfold out0_2
  rw [View.canon_unit_zero hz0]
  simp only [View.ld_unit_zero (S := S10000x64) hz0, View.ld_unit_zero (S := S64x128) hz0]
  obtain ⟨e0, e1, e2, e3, e4⟩ := maps0 t
  funext j
  show k0_pay1 (iblk0 V c 0 t) (iblk0 V c 1 t) j = product0 (V c main_arg0) (V c main_arg2) (((cfg0.win 2).blk t).view.emb j)
  refine (Point.k0_pay1_apply _ _ j).trans ?_
  refine Finset.sum_congr rfl fun k _ => ?_
  have h0 : ((cfg0.win 0).blk t).view.emb (Point.left0 j k) = Left0 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (Point.right0 j k) = Right0 (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega
  have a0 : iblk0 V c 0 t (Point.left0 j k) = V c main_arg0 (Left0 (((cfg0.win 2).blk t).view.emb j) k) := by
    show V c main_arg0 (((cfg0.win 0).blk t).view.emb (Point.left0 j k)) = _
    rw [h0]
  have a1 : iblk0 V c 1 t (Point.right0 j k) = V c main_arg2 (Right0 (((cfg0.win 2).blk t).view.emb j) k) := by
    show V c main_arg2 (((cfg0.win 1).blk t).view.emb (Point.right0 j k)) = _
    rw [h1]
  rw [a0, a1]

/-- An index of the output array lies in point `t`'s block iff each coordinate lies in the block's range. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row `r` is covered by the point whose block index is r / 10000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the output array is the whole product. -/
theorem final0 (c : Dev nD) : (dat0 V c).arrAt 2 cfg0.N = product0 (V c main_arg0) (V c main_arg2) :=
  (dat0 V c).arrAt_eq_of_cover 2 (product0 (V c main_arg0) (V c main_arg2)) (fun t _ => flushed0_eq V c t) (cover0)

end Cert.KernelIdeal.Region

end
-- ==== Proof.MatmulRegion2.lean ====
/-
  From blocks to the array, for one matmul pipeline. The grid has ten points; point t stages rows
  [10000·t, 10000·t + 10000) of the activations and the whole weight, and writes back the same rows of the output.
  Each written block is the restriction of ONE whole-array function, the product entry by entry, and the ten
  blocks tile the output, so after the region the output array is that product of the arrays the region found.
-/
import proofs.«122126_j65240553226643_1_alg».proof.Proof.MatmulPoint
import proofs.«122126_j65240553226643_1_alg».proof.Proof.Gen.KernelIdeal.Frame
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## Pipeline 2: main_v46 = main_v45 · main_arg4, ten blocks of 10000 rows -/

/-- Entry (row of `i`, `k`) of the activations. -/
abbrev Left2 (i : S100000x128.Idx) (k : Fin 128) : S100000x128.Idx := fun a => match a with
  | ⟨0, _⟩ => ⟨(i 0).val, (i 0).isLt⟩
  | ⟨1, _⟩ => ⟨k.val, k.isLt⟩
/-- Entry (`k`, column of `i`) of the weight. -/
abbrev Right2 (i : S100000x128.Idx) (k : Fin 128) : S128x128.Idx := fun a => match a with
  | ⟨0, _⟩ => ⟨k.val, k.isLt⟩
  | ⟨1, _⟩ => ⟨(i 1).val, (i 1).isLt⟩

/-- The whole product, entry by entry: the sum over the contracted axis of activation(r, k) · weight(k, c). -/
def product2 (X : (⟨S100000x128, .f32⟩ : BufTy).Contents (Elt Ideal)) (Wt : (⟨S128x128, .f32⟩ : BufTy).Contents (Elt Ideal)) :
    (⟨S100000x128, .f32⟩ : BufTy).Contents (Elt Ideal) :=
  fun i => ∑ k : Fin 128, X (Left2 i k) * Wt (Right2 i k)

/-- The printed index maps over the ten grid points: the activation block moves with the output block down the
    rows, the weight's block never moves, and nothing moves along the columns. -/
theorem maps2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every one of the ten row blocks is some point's. -/
theorem onto2 : ∀ q : Fin 10, ∃ t : Fin cfg2.N, win2_2.index t = ![q.val, 0] :=
  (by decide +kernel : ∀ q : Fin 10, ∃ t : Fin grid2.N, win2_2.index t = ![q.val, 0])

/-- What point `t` writes back is block `t` of the whole product of the arrays the region finds. -/
theorem flushed2_eq (c : Dev nD) (t : Fin cfg2.N) :
    (dat2 V c).flushed 2 t = ((cfg2.win 2).blk t).view.read (Elt Ideal) (product2 (V c main_v45) (V c main_arg4)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x128) hz2]
  obtain ⟨e0, e1, e2, e3, e4⟩ := maps2 t
  funext j
  show k2_pay1 (iblk2 V c 0 t) (iblk2 V c 1 t) j = product2 (V c main_v45) (V c main_arg4) (((cfg2.win 2).blk t).view.emb j)
  refine (Point.k2_pay1_apply _ _ j).trans ?_
  refine Finset.sum_congr rfl fun k _ => ?_
  have h0 : ((cfg2.win 0).blk t).view.emb (Point.left2 j k) = Left2 (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (Point.right2 j k) = Right2 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have a0 : iblk2 V c 0 t (Point.left2 j k) = V c main_v45 (Left2 (((cfg2.win 2).blk t).view.emb j) k) := by
    show V c main_v45 (((cfg2.win 0).blk t).view.emb (Point.left2 j k)) = _
    rw [h0]
  have a1 : iblk2 V c 1 t (Point.right2 j k) = V c main_arg4 (Right2 (((cfg2.win 2).blk t).view.emb j) k) := by
    show V c main_arg4 (((cfg2.win 1).blk t).view.emb (Point.right2 j k)) = _
    rw [h1]
  rw [a0, a1]

/-- An index of the output array lies in point `t`'s block iff each coordinate lies in the block's range. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- Row `r` is covered by the point whose block index is r / 10000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the region the output array is the whole product. -/
theorem final2 (c : Dev nD) : (dat2 V c).arrAt 2 cfg2.N = product2 (V c main_v45) (V c main_arg4) :=
  (dat2 V c).arrAt_eq_of_cover 2 (product2 (V c main_v45) (V c main_arg4)) (fun t _ => flushed2_eq V c t) (cover2)

end Cert.KernelIdeal.Region

end
-- ==== Proof.MatmulRegion4.lean ====
/-
  From blocks to the array, for one matmul pipeline. The grid has ten points; point t stages rows
  [10000·t, 10000·t + 10000) of the activations and the whole weight, and writes back the same rows of the output.
  Each written block is the restriction of ONE whole-array function, the product entry by entry, and the ten
  blocks tile the output, so after the region the output array is that product of the arrays the region found.
-/
import proofs.«122126_j65240553226643_1_alg».proof.Proof.MatmulPoint
import proofs.«122126_j65240553226643_1_alg».proof.Proof.Gen.KernelIdeal.Frame
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-! ## Pipeline 4: main_v62 = main_v61 · main_arg6, ten blocks of 10000 rows -/

/-- Entry (row of `i`, `k`) of the activations. -/
abbrev Left4 (i : S100000x64.Idx) (k : Fin 128) : S100000x128.Idx := fun a => match a with
  | ⟨0, _⟩ => ⟨(i 0).val, (i 0).isLt⟩
  | ⟨1, _⟩ => ⟨k.val, k.isLt⟩
/-- Entry (`k`, column of `i`) of the weight. -/
abbrev Right4 (i : S100000x64.Idx) (k : Fin 128) : S128x64.Idx := fun a => match a with
  | ⟨0, _⟩ => ⟨k.val, k.isLt⟩
  | ⟨1, _⟩ => ⟨(i 1).val, (i 1).isLt⟩

/-- The whole product, entry by entry: the sum over the contracted axis of activation(r, k) · weight(k, c). -/
def product4 (X : (⟨S100000x128, .f32⟩ : BufTy).Contents (Elt Ideal)) (Wt : (⟨S128x64, .f32⟩ : BufTy).Contents (Elt Ideal)) :
    (⟨S100000x64, .f32⟩ : BufTy).Contents (Elt Ideal) :=
  fun i => ∑ k : Fin 128, X (Left4 i k) * Wt (Right4 i k)

/-- The printed index maps over the ten grid points: the activation block moves with the output block down the
    rows, the weight's block never moves, and nothing moves along the columns. -/
theorem maps4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 :=
  (by decide +kernel : ∀ t : Fin grid4.N, _)

/-- Every one of the ten row blocks is some point's. -/
theorem onto4 : ∀ q : Fin 10, ∃ t : Fin cfg4.N, win4_2.index t = ![q.val, 0] :=
  (by decide +kernel : ∀ q : Fin 10, ∃ t : Fin grid4.N, win4_2.index t = ![q.val, 0])

/-- What point `t` writes back is block `t` of the whole product of the arrays the region finds. -/
theorem flushed4_eq (c : Dev nD) (t : Fin cfg4.N) :
    (dat4 V c).flushed 2 t = ((cfg4.win 2).blk t).view.read (Elt Ideal) (product4 (V c main_v61) (V c main_arg6)) := by
  show (cfg4.win 2).cut (grid4.coords t) ((dat4 V c).after 2 t) = _
  rw [after4_2]
  unfold out4_2
  rw [View.canon_unit_zero hz4]
  simp only [View.ld_unit_zero (S := S10000x128) hz4, View.ld_unit_zero (S := S128x64) hz4]
  obtain ⟨e0, e1, e2, e3, e4⟩ := maps4 t
  funext j
  show k4_pay1 (iblk4 V c 0 t) (iblk4 V c 1 t) j = product4 (V c main_v61) (V c main_arg6) (((cfg4.win 2).blk t).view.emb j)
  refine (Point.k4_pay1_apply _ _ j).trans ?_
  refine Finset.sum_congr rfl fun k _ => ?_
  have h0 : ((cfg4.win 0).blk t).view.emb (Point.left4 j k) = Left4 (((cfg4.win 2).blk t).view.emb j) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * k.val = k.val; omega
  have h1 : ((cfg4.win 1).blk t).view.emb (Point.right4 j k) = Right4 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  have a0 : iblk4 V c 0 t (Point.left4 j k) = V c main_v61 (Left4 (((cfg4.win 2).blk t).view.emb j) k) := by
    show V c main_v61 (((cfg4.win 0).blk t).view.emb (Point.left4 j k)) = _
    rw [h0]
  have a1 : iblk4 V c 1 t (Point.right4 j k) = V c main_arg6 (Right4 (((cfg4.win 2).blk t).view.emb j) k) := by
    show V c main_arg6 (((cfg4.win 1).blk t).view.emb (Point.right4 j k)) = _
    rw [h1]
  rw [a0, a1]

/-- An index of the output array lies in point `t`'s block iff each coordinate lies in the block's range. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

/-- Row `r` is covered by the point whose block index is r / 10000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region the output array is the whole product. -/
theorem final4 (c : Dev nD) : (dat4 V c).arrAt 2 cfg4.N = product4 (V c main_v61) (V c main_arg6) :=
  (dat4 V c).arrAt_eq_of_cover 2 (product4 (V c main_v61) (V c main_arg6)) (fun t _ => flushed4_eq V c t) (cover4)

end Cert.KernelIdeal.Region

end
-- ==== Proof.BiasPoint.lean ====
/-
  The three epilogues of the network, one grid point at a time. Each bias kernel loads a block of 10000 rows of the
  aggregated messages and the bias as a single row, repeats that row down the block, adds, and (in the first two
  layers) clamps below at zero. Entry (r, c) of what it stores is block(r, c) + bias(0, c), then max with 0.
-/
import proofs.«122126_j65240553226643_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Point

open Cert.KernelIdeal Cert.KernelIdeal.Gen Idealize.ShloMosaic Idealize.ShloMosaic.TcCoe

/-! ## The epilogue of pipeline 1: a [10000, 128] block of rows plus the bias row, clamped below at zero -/

/-- The bias entry under column of `j`: (0, column). -/
abbrev bias1 (j : S10000x128.Idx) : S1x128.Idx := fun a => match a with
  | ⟨0, _⟩ => ⟨0, Nat.one_pos⟩
  | ⟨1, _⟩ => ⟨(j 1).val, (j 1).isLt⟩

/-- The body's stored value at (r, c) is block(r, c) + bias(0, c), then the maximum with the constant zero: the two casts keep
    their shapes and the bias row is repeated down the rows. -/
theorem k1_pay1_apply (x0 : Vec Ideal S10000x128 .f32) (x1 : Vec Ideal S1x128 .f32) (j : S10000x128.Idx) :
    k1_pay1 (F := Ideal) x0 x1 j = FloatOps.maximumf (FloatOps.addf (x0 j) (x1 (bias1 j))) (Scalar.ofBits .f32 0x00000000#32) := by
  unfold k1_pay1
  rw [shapeCast_self, shapeCast_self]
  have hb : broadcastTo S10000x128 (x1 : S1x128.Idx → Ideal .f32) broadcasts_S1x128_S10000x128 j = x1 (bias1 j) :=
    broadcastTo_apply (x1 : S1x128.Idx → Ideal .f32) broadcasts_S1x128_S10000x128 j (bias1 j) (fun a => match a with
      | ⟨0, _⟩ => by show 0 = if (1 : Nat) = 1 then 0 else _; rw [if_pos rfl]
      | ⟨1, _⟩ => by show (j 1).val = if (128 : Nat) = 1 then 0 else (j 1).val; rw [if_neg (by decide)])
  simp only [maximumf, addf, broadcast]
  rw [hb]

/-! ## The epilogue of pipeline 3: a [10000, 128] block of rows plus the bias row, clamped below at zero -/

/-- The bias entry under column of `j`: (0, column). -/
abbrev bias3 (j : S10000x128.Idx) : S1x128.Idx := fun a => match a with
  | ⟨0, _⟩ => ⟨0, Nat.one_pos⟩
  | ⟨1, _⟩ => ⟨(j 1).val, (j 1).isLt⟩

/-- The body's stored value at (r, c) is block(r, c) + bias(0, c), then the maximum with the constant zero: the two casts keep
    their shapes and the bias row is repeated down the rows. -/
theorem k3_pay1_apply (x0 : Vec Ideal S10000x128 .f32) (x1 : Vec Ideal S1x128 .f32) (j : S10000x128.Idx) :
    k3_pay1 (F := Ideal) x0 x1 j = FloatOps.maximumf (FloatOps.addf (x0 j) (x1 (bias3 j))) (Scalar.ofBits .f32 0x00000000#32) := by
  unfold k3_pay1
  rw [shapeCast_self, shapeCast_self]
  have hb : broadcastTo S10000x128 (x1 : S1x128.Idx → Ideal .f32) broadcasts_S1x128_S10000x128 j = x1 (bias3 j) :=
    broadcastTo_apply (x1 : S1x128.Idx → Ideal .f32) broadcasts_S1x128_S10000x128 j (bias3 j) (fun a => match a with
      | ⟨0, _⟩ => by show 0 = if (1 : Nat) = 1 then 0 else _; rw [if_pos rfl]
      | ⟨1, _⟩ => by show (j 1).val = if (128 : Nat) = 1 then 0 else (j 1).val; rw [if_neg (by decide)])
  simp only [maximumf, addf, broadcast]
  rw [hb]

/-! ## The epilogue of pipeline 5: a [10000, 64] block of rows plus the bias row -/

/-- The bias entry under column of `j`: (0, column). -/
abbrev bias5 (j : S10000x64.Idx) : S1x64.Idx := fun a => match a with
  | ⟨0, _⟩ => ⟨0, Nat.one_pos⟩
  | ⟨1, _⟩ => ⟨(j 1).val, (j 1).isLt⟩

/-- The body's stored value at (r, c) is block(r, c) + bias(0, c): the two casts keep
    their shapes and the bias row is repeated down the rows. -/
theorem k5_pay1_apply (x0 : Vec Ideal S10000x64 .f32) (x1 : Vec Ideal S1x64 .f32) (j : S10000x64.Idx) :
    k5_pay1 (F := Ideal) x0 x1 j = FloatOps.addf (x0 j) (x1 (bias5 j)) := by
  unfold k5_pay1
  rw [shapeCast_self, shapeCast_self]
  have hb : broadcastTo S10000x64 (x1 : S1x64.Idx → Ideal .f32) broadcasts_S1x64_S10000x64 j = x1 (bias5 j) :=
    broadcastTo_apply (x1 : S1x64.Idx → Ideal .f32) broadcasts_S1x64_S10000x64 j (bias5 j) (fun a => match a with
      | ⟨0, _⟩ => by show 0 = if (1 : Nat) = 1 then 0 else _; rw [if_pos rfl]
      | ⟨1, _⟩ => by show (j 1).val = if (64 : Nat) = 1 then 0 else (j 1).val; rw [if_neg (by decide)])
  simp only [addf]
  rw [hb]

end Cert.KernelIdeal.Point

end
-- ==== Proof.BiasRegion1.lean ====
/-
  From blocks to the array, for one bias pipeline. The grid has ten points; point t stages rows
  [10000·t, 10000·t + 10000) of the aggregated messages and the one bias row, and writes back the same rows of the
  output. Each written block is the restriction of ONE whole-array function (aggregate plus the bias of its column,
  clamped where the layer clamps), and the ten blocks tile the output.
-/
import proofs.«122126_j65240553226643_1_alg».proof.Proof.BiasPoint
import proofs.«122126_j65240553226643_1_alg».proof.Proof.Gen.KernelIdeal.Frame
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ## Pipeline 1: main_v45 = main_v43 + bias row, clamped below at zero, ten blocks of 10000 rows -/

/-- The bias entry under the column of `i`: (0, column). -/
abbrev Bias1 (i : S100000x128.Idx) : S1x128.Idx := fun a => match a with
  | ⟨0, _⟩ => ⟨0, Nat.one_pos⟩
  | ⟨1, _⟩ => ⟨(i 1).val, (i 1).isLt⟩

/-- The whole epilogue, entry by entry: aggregate(r, c) + bias(0, c), then the maximum with the constant zero. -/
def epilogue1 (A : (⟨S100000x128, .f32⟩ : BufTy).Contents (Elt Ideal)) (B : (⟨S1x128, .f32⟩ : BufTy).Contents (Elt Ideal)) :
    (⟨S100000x128, .f32⟩ : BufTy).Contents (Elt Ideal) :=
  fun i => FloatOps.maximumf (F := Ideal) (φ := .f32) (FloatOps.addf (F := Ideal) (φ := .f32) (A i) (B (Bias1 i))) (Scalar.ofBits (F := Ideal) .f32 0x00000000#32)

/-- The printed index maps over the ten grid points: the aggregate's block moves with the output block down the
    rows, the bias row's block never moves, and nothing moves along the columns. -/
theorem maps1 : ∀ t : Fin cfg1.N, win1_0.index t (0 : Fin 2) = win1_2.index t (0 : Fin 2)
    ∧ win1_0.index t (1 : Fin 2) = win1_2.index t (1 : Fin 2) ∧ win1_1.index t (0 : Fin 2) = 0 ∧ win1_1.index t (1 : Fin 2) = 0
    ∧ win1_2.index t (1 : Fin 2) = 0 :=
  (by decide +kernel : ∀ t : Fin grid1.N, _)

/-- Every one of the ten row blocks is some point's. -/
theorem onto1 : ∀ q : Fin 10, ∃ t : Fin cfg1.N, win1_2.index t = ![q.val, 0] :=
  (by decide +kernel : ∀ q : Fin 10, ∃ t : Fin grid1.N, win1_2.index t = ![q.val, 0])

/-- What point `t` writes back is block `t` of the whole epilogue of the arrays the region finds. -/
theorem flushed1_eq (c : Dev nD) (t : Fin cfg1.N) :
    (dat1 V c).flushed 2 t = ((cfg1.win 2).blk t).view.read (Elt Ideal) (epilogue1 (V c main_v43) (V c main_v44)) := by
  show (cfg1.win 2).cut (grid1.coords t) ((dat1 V c).after 2 t) = _
  rw [after1_2]
  unfold out1_2
  rw [View.canon_unit_zero hz1]
  simp only [View.ld_unit_zero (S := S10000x128) hz1, View.ld_unit_zero (S := S1x128) hz1]
  obtain ⟨e0, e1, e2, e3, e4⟩ := maps1 t
  funext j
  show k1_pay1 (iblk1 V c 0 t) (iblk1 V c 1 t) j = epilogue1 (V c main_v43) (V c main_v44) (((cfg1.win 2).blk t).view.emb j)
  refine (Point.k1_pay1_apply _ _ j).trans ?_
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (Point.bias1 j) = Bias1 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have a0 : iblk1 V c 0 t j = V c main_v43 (((cfg1.win 2).blk t).view.emb j) := by
    show V c main_v43 (((cfg1.win 0).blk t).view.emb j) = _
    rw [h0]
  have a1 : iblk1 V c 1 t (Point.bias1 j) = V c main_v44 (Bias1 (((cfg1.win 2).blk t).view.emb j)) := by
    show V c main_v44 (((cfg1.win 1).blk t).view.emb (Point.bias1 j)) = _
    rw [h1]
  rw [a0, a1]
  rfl

/-- An index of the output array lies in point `t`'s block iff each coordinate lies in the block's range. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Row `r` is covered by the point whose block index is r / 10000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the output array is the whole epilogue. -/
theorem final1 (c : Dev nD) : (dat1 V c).arrAt 2 cfg1.N = epilogue1 (V c main_v43) (V c main_v44) :=
  (dat1 V c).arrAt_eq_of_cover 2 (epilogue1 (V c main_v43) (V c main_v44)) (fun t _ => flushed1_eq V c t) (cover1)

end Cert.KernelIdeal.Region

end
-- ==== Proof.BiasRegion3.lean ====
/-
  From blocks to the array, for one bias pipeline. The grid has ten points; point t stages rows
  [10000·t, 10000·t + 10000) of the aggregated messages and the one bias row, and writes back the same rows of the
  output. Each written block is the restriction of ONE whole-array function (aggregate plus the bias of its column,
  clamped where the layer clamps), and the ten blocks tile the output.
-/
import proofs.«122126_j65240553226643_1_alg».proof.Proof.BiasPoint
import proofs.«122126_j65240553226643_1_alg».proof.Proof.Gen.KernelIdeal.Frame
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-! ## Pipeline 3: main_v61 = main_v59 + bias row, clamped below at zero, ten blocks of 10000 rows -/

/-- The bias entry under the column of `i`: (0, column). -/
abbrev Bias3 (i : S100000x128.Idx) : S1x128.Idx := fun a => match a with
  | ⟨0, _⟩ => ⟨0, Nat.one_pos⟩
  | ⟨1, _⟩ => ⟨(i 1).val, (i 1).isLt⟩

/-- The whole epilogue, entry by entry: aggregate(r, c) + bias(0, c), then the maximum with the constant zero. -/
def epilogue3 (A : (⟨S100000x128, .f32⟩ : BufTy).Contents (Elt Ideal)) (B : (⟨S1x128, .f32⟩ : BufTy).Contents (Elt Ideal)) :
    (⟨S100000x128, .f32⟩ : BufTy).Contents (Elt Ideal) :=
  fun i => FloatOps.maximumf (F := Ideal) (φ := .f32) (FloatOps.addf (F := Ideal) (φ := .f32) (A i) (B (Bias3 i))) (Scalar.ofBits (F := Ideal) .f32 0x00000000#32)

/-- The printed index maps over the ten grid points: the aggregate's block moves with the output block down the
    rows, the bias row's block never moves, and nothing moves along the columns. -/
theorem maps3 : ∀ t : Fin cfg3.N, win3_0.index t (0 : Fin 2) = win3_2.index t (0 : Fin 2)
    ∧ win3_0.index t (1 : Fin 2) = win3_2.index t (1 : Fin 2) ∧ win3_1.index t (0 : Fin 2) = 0 ∧ win3_1.index t (1 : Fin 2) = 0
    ∧ win3_2.index t (1 : Fin 2) = 0 :=
  (by decide +kernel : ∀ t : Fin grid3.N, _)

/-- Every one of the ten row blocks is some point's. -/
theorem onto3 : ∀ q : Fin 10, ∃ t : Fin cfg3.N, win3_2.index t = ![q.val, 0] :=
  (by decide +kernel : ∀ q : Fin 10, ∃ t : Fin grid3.N, win3_2.index t = ![q.val, 0])

/-- What point `t` writes back is block `t` of the whole epilogue of the arrays the region finds. -/
theorem flushed3_eq (c : Dev nD) (t : Fin cfg3.N) :
    (dat3 V c).flushed 2 t = ((cfg3.win 2).blk t).view.read (Elt Ideal) (epilogue3 (V c main_v59) (V c main_v60)) := by
  show (cfg3.win 2).cut (grid3.coords t) ((dat3 V c).after 2 t) = _
  rw [after3_2]
  unfold out3_2
  rw [View.canon_unit_zero hz3]
  simp only [View.ld_unit_zero (S := S10000x128) hz3, View.ld_unit_zero (S := S1x128) hz3]
  obtain ⟨e0, e1, e2, e3, e4⟩ := maps3 t
  funext j
  show k3_pay1 (iblk3 V c 0 t) (iblk3 V c 1 t) j = epilogue3 (V c main_v59) (V c main_v60) (((cfg3.win 2).blk t).view.emb j)
  refine (Point.k3_pay1_apply _ _ j).trans ?_
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (Point.bias3 j) = Bias3 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  have a0 : iblk3 V c 0 t j = V c main_v59 (((cfg3.win 2).blk t).view.emb j) := by
    show V c main_v59 (((cfg3.win 0).blk t).view.emb j) = _
    rw [h0]
  have a1 : iblk3 V c 1 t (Point.bias3 j) = V c main_v60 (Bias3 (((cfg3.win 2).blk t).view.emb j)) := by
    show V c main_v60 (((cfg3.win 1).blk t).view.emb (Point.bias3 j)) = _
    rw [h1]
  rw [a0, a1]
  rfl

/-- An index of the output array lies in point `t`'s block iff each coordinate lies in the block's range. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v61).slice (win3_2.rect t)).set ↔ _
  rw [View.set_slice_whole, Rect.mem_set_unit]
  exact Iff.rfl

/-- Row `r` is covered by the point whose block index is r / 10000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the region the output array is the whole epilogue. -/
theorem final3 (c : Dev nD) : (dat3 V c).arrAt 2 cfg3.N = epilogue3 (V c main_v59) (V c main_v60) :=
  (dat3 V c).arrAt_eq_of_cover 2 (epilogue3 (V c main_v59) (V c main_v60)) (fun t _ => flushed3_eq V c t) (cover3)

end Cert.KernelIdeal.Region

end
-- ==== Proof.BiasRegion5.lean ====
/-
  From blocks to the array, for one bias pipeline. The grid has ten points; point t stages rows
  [10000·t, 10000·t + 10000) of the aggregated messages and the one bias row, and writes back the same rows of the
  output. Each written block is the restriction of ONE whole-array function (aggregate plus the bias of its column,
  clamped where the layer clamps), and the ten blocks tile the output.
-/
import proofs.«122126_j65240553226643_1_alg».proof.Proof.BiasPoint
import proofs.«122126_j65240553226643_1_alg».proof.Proof.Gen.KernelIdeal.Frame
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-! ## Pipeline 5: main_v77 = main_v75 + bias row, ten blocks of 10000 rows -/

/-- The bias entry under the column of `i`: (0, column). -/
abbrev Bias5 (i : S100000x64.Idx) : S1x64.Idx := fun a => match a with
  | ⟨0, _⟩ => ⟨0, Nat.one_pos⟩
  | ⟨1, _⟩ => ⟨(i 1).val, (i 1).isLt⟩

/-- The whole epilogue, entry by entry: aggregate(r, c) + bias(0, c). -/
def epilogue5 (A : (⟨S100000x64, .f32⟩ : BufTy).Contents (Elt Ideal)) (B : (⟨S1x64, .f32⟩ : BufTy).Contents (Elt Ideal)) :
    (⟨S100000x64, .f32⟩ : BufTy).Contents (Elt Ideal) :=
  fun i => FloatOps.addf (F := Ideal) (φ := .f32) (A i) (B (Bias5 i))

/-- The printed index maps over the ten grid points: the aggregate's block moves with the output block down the
    rows, the bias row's block never moves, and nothing moves along the columns. -/
theorem maps5 : ∀ t : Fin cfg5.N, win5_0.index t (0 : Fin 2) = win5_2.index t (0 : Fin 2)
    ∧ win5_0.index t (1 : Fin 2) = win5_2.index t (1 : Fin 2) ∧ win5_1.index t (0 : Fin 2) = 0 ∧ win5_1.index t (1 : Fin 2) = 0
    ∧ win5_2.index t (1 : Fin 2) = 0 :=
  (by decide +kernel : ∀ t : Fin grid5.N, _)

/-- Every one of the ten row blocks is some point's. -/
theorem onto5 : ∀ q : Fin 10, ∃ t : Fin cfg5.N, win5_2.index t = ![q.val, 0] :=
  (by decide +kernel : ∀ q : Fin 10, ∃ t : Fin grid5.N, win5_2.index t = ![q.val, 0])

/-- What point `t` writes back is block `t` of the whole epilogue of the arrays the region finds. -/
theorem flushed5_eq (c : Dev nD) (t : Fin cfg5.N) :
    (dat5 V c).flushed 2 t = ((cfg5.win 2).blk t).view.read (Elt Ideal) (epilogue5 (V c main_v75) (V c main_v76)) := by
  show (cfg5.win 2).cut (grid5.coords t) ((dat5 V c).after 2 t) = _
  rw [after5_2]
  unfold out5_2
  rw [View.canon_unit_zero hz5]
  simp only [View.ld_unit_zero (S := S10000x64) hz5, View.ld_unit_zero (S := S1x64) hz5]
  obtain ⟨e0, e1, e2, e3, e4⟩ := maps5 t
  funext j
  show k5_pay1 (iblk5 V c 0 t) (iblk5 V c 1 t) j = epilogue5 (V c main_v75) (V c main_v76) (((cfg5.win 2).blk t).view.emb j)
  refine (Point.k5_pay1_apply _ _ j).trans ?_
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (Point.bias5 j) = Bias5 (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  have a0 : iblk5 V c 0 t j = V c main_v75 (((cfg5.win 2).blk t).view.emb j) := by
    show V c main_v75 (((cfg5.win 0).blk t).view.emb j) = _
    rw [h0]
  have a1 : iblk5 V c 1 t (Point.bias5 j) = V c main_v76 (Bias5 (((cfg5.win 2).blk t).view.emb j)) := by
    show V c main_v76 (((cfg5.win 1).blk t).view.emb (Point.bias5 j)) = _
    rw [h1]
  rw [a0, a1]
  rfl

/-- An index of the output array lies in point `t`'s block iff each coordinate lies in the block's range. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v77).slice (win5_2.rect t)).set ↔ _
  rw [View.set_slice_whole, Rect.mem_set_unit]
  exact Iff.rfl

/-- Row `r` is covered by the point whose block index is r / 10000. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := onto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region the output array is the whole epilogue. -/
theorem final5 (c : Dev nD) : (dat5 V c).arrAt 2 cfg5.N = epilogue5 (V c main_v75) (V c main_v76) :=
  (dat5 V c).arrAt_eq_of_cover 2 (epilogue5 (V c main_v75) (V c main_v76)) (fun t _ => flushed5_eq V c t) (cover5)

end Cert.KernelIdeal.Region

end
-- ==== Proof.Bridges.lean ====
/-
  The six pipelines against the reference's operations. At the same operands each matmul pipeline leaves the
  reference's `dot_general` and each bias pipeline leaves the reference's broadcast-add (and clamp): the two sides are
  the same function entry by entry, and only the spelling of the index functions differs.
-/
import proofs.«122126_j65240553226643_1_alg».proof.Proof.MatmulRegion0
import proofs.«122126_j65240553226643_1_alg».proof.Proof.MatmulRegion2
import proofs.«122126_j65240553226643_1_alg».proof.Proof.MatmulRegion4
import proofs.«122126_j65240553226643_1_alg».proof.Proof.BiasRegion1
import proofs.«122126_j65240553226643_1_alg».proof.Proof.BiasRegion3
import proofs.«122126_j65240553226643_1_alg».proof.Proof.BiasRegion5
import proofs.«122126_j65240553226643_1_alg».proof.Proof.RefRead

set_option maxRecDepth 16384

noncomputable section

namespace Cert.KernelIdeal.Bridge

open Cert.KernelIdeal Idealize.ShloMosaic Idealize.ShloMosaic.TcCoe
open Cert.ReferenceIdeal.ReadP

/-- The product pipeline 0 leaves is the reference's `dot_general` at the same operands: both are, entry by
    entry, the sum over the contracted axis of activation(r, k) · weight(k, c). -/
theorem product0_eq (x0 : (⟨S100000x64, .f32⟩ : BufTy).Contents (Elt Ideal)) (x2 : (⟨S64x128, .f32⟩ : BufTy).Contents (Elt Ideal)) :
    Region.product0 (x0) x2 = val_main_v30 (F := Ideal) x0 x2 := by
  funext i
  rw [val_main_v30_apply]
  have hl : ∀ k : Fin 64, Region.Left0 i k = lidx_main_v30 i k := fun k => funext fun a => by
    match a with
    | ⟨0, _⟩ => rfl
    | ⟨1, _⟩ => rfl
  have hr : ∀ k : Fin 64, Region.Right0 i k = ridx_main_v30 i k := fun k => funext fun a => by
    match a with
    | ⟨0, _⟩ => rfl
    | ⟨1, _⟩ => rfl
  unfold Region.product0
  simp only [hl, hr]

/-- The product pipeline 2 leaves is the reference's `dot_general` at the same operands: both are, entry by
    entry, the sum over the contracted axis of activation(r, k) · weight(k, c). -/
theorem product2_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) :
    Region.product2 (val_main_v47 (F := Ideal) x0 x1 x2 x3) x4 = val_main_v48 (F := Ideal) x0 x1 x2 x3 x4 := by
  funext i
  rw [val_main_v48_apply]
  have hl : ∀ k : Fin 128, Region.Left2 i k = lidx_main_v48 i k := fun k => funext fun a => by
    match a with
    | ⟨0, _⟩ => rfl
    | ⟨1, _⟩ => rfl
  have hr : ∀ k : Fin 128, Region.Right2 i k = ridx_main_v48 i k := fun k => funext fun a => by
    match a with
    | ⟨0, _⟩ => rfl
    | ⟨1, _⟩ => rfl
  unfold Region.product2
  simp only [hl, hr]

/-- The product pipeline 4 leaves is the reference's `dot_general` at the same operands: both are, entry by
    entry, the sum over the contracted axis of activation(r, k) · weight(k, c). -/
theorem product4_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) :
    Region.product4 (val_main_v65 (F := Ideal) x0 x1 x2 x3 x4 x5) x6 = val_main_v66 (F := Ideal) x0 x1 x2 x3 x4 x5 x6 := by
  funext i
  rw [val_main_v66_apply]
  have hl : ∀ k : Fin 128, Region.Left4 i k = lidx_main_v66 i k := fun k => funext fun a => by
    match a with
    | ⟨0, _⟩ => rfl
    | ⟨1, _⟩ => rfl
  have hr : ∀ k : Fin 128, Region.Right4 i k = ridx_main_v66 i k := fun k => funext fun a => by
    match a with
    | ⟨0, _⟩ => rfl
    | ⟨1, _⟩ => rfl
  unfold Region.product4
  simp only [hl, hr]

/-- The epilogue pipeline 1 leaves is the reference's: the kernel reshapes the bias vector to one row and repeats it
    down the block, the reference broadcasts it in two steps; either way entry (r, c) adds bias(c), and both clamp with the same constant zero. -/
theorem epilogue1_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (h : S128.ShapeCasts S1x128) :
    Region.epilogue1 (val_main_v43 (F := Ideal) x0 x1 x2) (shapeCast S1x128 x3 h) = val_main_v47 (F := Ideal) x0 x1 x2 x3 := by
  funext i
  rw [val_main_v47_apply, val_main_v46_apply, val_main_v45_apply, val_main_v44_apply, val_main_call1_v0_apply, val_main_call1_cst_apply]
  have hb : shapeCast S1x128 x3 h (Region.Bias1 i) = x3 (idx_main_v44 (idx_main_v45 i)) := by
    refine (shapeCast_addUnit_apply (n := 1) ![128] x3 h (Region.Bias1 i)).trans ?_
    exact congrArg x3 (funext fun a => by
      match a with
      | ⟨0, _⟩ => rfl)
  unfold Region.epilogue1
  rw [hb]

/-- The epilogue pipeline 3 leaves is the reference's: the kernel reshapes the bias vector to one row and repeats it
    down the block, the reference broadcasts it in two steps; either way entry (r, c) adds bias(c), and both clamp with the same constant zero. -/
theorem epilogue3_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (h : S128.ShapeCasts S1x128) :
    Region.epilogue3 (val_main_v61 (F := Ideal) x0 x1 x2 x3 x4) (shapeCast S1x128 x5 h) = val_main_v65 (F := Ideal) x0 x1 x2 x3 x4 x5 := by
  funext i
  rw [val_main_v65_apply, val_main_v64_apply, val_main_v63_apply, val_main_v62_apply, val_main_call2_v0_apply, val_main_call2_cst_apply]
  have hb : shapeCast S1x128 x5 h (Region.Bias3 i) = x5 (idx_main_v62 (idx_main_v63 i)) := by
    refine (shapeCast_addUnit_apply (n := 1) ![128] x5 h (Region.Bias3 i)).trans ?_
    exact congrArg x5 (funext fun a => by
      match a with
      | ⟨0, _⟩ => rfl)
  unfold Region.epilogue3
  rw [hb]

/-- The epilogue pipeline 5 leaves is the reference's: the kernel reshapes the bias vector to one row and repeats it
    down the block, the reference broadcasts it in two steps; either way entry (r, c) adds bias(c). -/
theorem epilogue5_eq (x0 : (⟨S100000x64, .f32⟩ : BufTy).Contents (Elt Ideal)) (x1 : (⟨S2x1600000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (h : S64.ShapeCasts S1x64) :
    Region.epilogue5 (val_main_v79 (F := Ideal) x0 x1 x2 x3 x4 x5 x6) (shapeCast S1x64 x7 h) = val_main_v82 (F := Ideal) x0 x1 x2 x3 x4 x5 x6 x7 := by
  funext i
  rw [val_main_v82_apply, val_main_v81_apply, val_main_v80_apply]
  have hb : shapeCast S1x64 x7 h (Region.Bias5 i) = x7 (idx_main_v80 (idx_main_v81 i)) := by
    refine (shapeCast_addUnit_apply (n := 1) ![64] x7 h (Region.Bias5 i)).trans ?_
    exact congrArg x7 (funext fun a => by
      match a with
      | ⟨0, _⟩ => rfl)
  unfold Region.epilogue5
  rw [hb]

end Cert.KernelIdeal.Bridge

end
-- ==== Proof.FoldEntry.lean ====
/-
  The kernel's buffers when its first pipeline is entered. The forty host operations before it build, from the edge
  index argument alone, the edge sources and targets with the self-loops appended, the node degrees, their inverse
  square roots (zero where the degree is zero) and from them one norm per edge. They are the reference's first forty
  operations, so each buffer holds the reference's stage of the same argument; the float arguments are untouched.
-/
import proofs.«122126_j65240553226643_1_alg».proof.Proof.Gen.KernelIdeal.Frame
import proofs.«122126_j65240553226643_1_alg».proof.Proof.RefRead
import Idealize.ShloMosaic.Lib.StableHlo.Run

set_option maxRecDepth 16384
set_option maxHeartbeats 2000000

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-! ## After the first stretch: edge lists, degree tests and inverse square roots -/

theorem first_src (c : Dev nD) : W1 m ρ c (Proc.devRef .tc main_v3) = val_main_v3 (F := Ideal) (m ((c.tc : Thread nD τ).loc main_arg1)) := by
  show StableHlo.after hostOps0 (W0 m ρ c) (Proc.devRef .tc main_v3) = _
  after_results <;> rfl

theorem first_dst (c : Dev nD) : W1 m ρ c (Proc.devRef .tc main_v6) = val_main_v6 (F := Ideal) (m ((c.tc : Thread nD τ).loc main_arg1)) := by
  show StableHlo.after hostOps0 (W0 m ρ c) (Proc.devRef .tc main_v6) = _
  after_results <;> rfl

theorem first_positive (c : Dev nD) : W1 m ρ c (Proc.devRef .tc main_v12) = val_main_v12 (F := Ideal) (m ((c.tc : Thread nD τ).loc main_arg1)) := by
  show StableHlo.after hostOps0 (W0 m ρ c) (Proc.devRef .tc main_v12) = _
  after_results <;> rfl

theorem first_rsqrt (c : Dev nD) : W1 m ρ c (Proc.devRef .tc main_v13) = val_main_v13 (F := Ideal) (m ((c.tc : Thread nD τ).loc main_arg1)) := by
  show StableHlo.after hostOps0 (W0 m ρ c) (Proc.devRef .tc main_v13) = _
  after_results <;> rfl

theorem first_zero (c : Dev nD) : W1 m ρ c (Proc.devRef .tc main_cst_2) = val_main_cst_2 (F := Ideal) := by
  show StableHlo.after hostOps0 (W0 m ρ c) (Proc.devRef .tc main_cst_2) = _
  after_results <;> rfl

/-! ## The select's operands are stated at the tensors' own types: at these buffers that change of type is the identity -/

theorem toBuf_v14 (h : main_v14.ty = (⟨S100000, .f32⟩ : BufTy)) (h2 : main_v14.space ≠ .host) (h3 : main_v14.isScoped = false)
    (v : (⟨S100000, .f32⟩ : BufTy).Contents (Elt Ideal)) :
    (TRef.of (sig := sig) main_v14 h h2 h3).toBuf v = v := cast_eq _ _

theorem ofBuf_v12 (h : main_v12.ty = (⟨S100000, .i1⟩ : BufTy)) (h2 : main_v12.space ≠ .host) (h3 : main_v12.isScoped = false)
    (v : (⟨S100000, .i1⟩ : BufTy).Contents (Elt Ideal)) :
    (TRef.of (sig := sig) main_v12 h h2 h3).ofBuf v = v := cast_eq _ _

theorem ofBuf_v13 (h : main_v13.ty = (⟨S100000, .f32⟩ : BufTy)) (h2 : main_v13.space ≠ .host) (h3 : main_v13.isScoped = false)
    (v : (⟨S100000, .f32⟩ : BufTy).Contents (Elt Ideal)) :
    (TRef.of (sig := sig) main_v13 h h2 h3).ofBuf v = v := cast_eq _ _

theorem ofBuf_call0_v1 (h : main_call0_v1.ty = (⟨S100000, .f32⟩ : BufTy)) (h2 : main_call0_v1.space ≠ .host) (h3 : main_call0_v1.isScoped = false)
    (v : (⟨S100000, .f32⟩ : BufTy).Contents (Elt Ideal)) :
    (TRef.of (sig := sig) main_call0_v1 h h2 h3).ofBuf v = v := cast_eq _ _

theorem toBuf_call0_v1 (h : main_call0_v1.ty = (⟨S100000, .f32⟩ : BufTy)) (h2 : main_call0_v1.space ≠ .host) (h3 : main_call0_v1.isScoped = false)
    (v : (⟨S100000, .f32⟩ : BufTy).Contents (Elt Ideal)) :
    (TRef.of (sig := sig) main_call0_v1 h h2 h3).toBuf v = v := cast_eq _ _

theorem ofBuf_call0_v0 (h : main_call0_v0.ty = (⟨S_, .f32⟩ : BufTy)) (h2 : main_call0_v0.space ≠ .host) (h3 : main_call0_v0.isScoped = false)
    (v : (⟨S_, .f32⟩ : BufTy).Contents (Elt Ideal)) :
    (TRef.of (sig := sig) main_call0_v0 h h2 h3).ofBuf v = v := cast_eq _ _

theorem toBuf_call0_v0 (h : main_call0_v0.ty = (⟨S_, .f32⟩ : BufTy)) (h2 : main_call0_v0.space ≠ .host) (h3 : main_call0_v0.isScoped = false)
    (v : (⟨S_, .f32⟩ : BufTy).Contents (Elt Ideal)) :
    (TRef.of (sig := sig) main_call0_v0 h h2 h3).toBuf v = v := cast_eq _ _

theorem ofBuf_cst_2 (h : main_cst_2.ty = (⟨S_, .f32⟩ : BufTy)) (h2 : main_cst_2.space ≠ .host) (h3 : main_cst_2.isScoped = false)
    (v : (⟨S_, .f32⟩ : BufTy).Contents (Elt Ideal)) :
    (TRef.of (sig := sig) main_cst_2 h h2 h3).ofBuf v = v := cast_eq _ _

/-! ## After the select: the inverse square root of each node's degree -/

theorem second_dinv (c : Dev nD) : W2 m ρ c (Proc.devRef .tc main_v14) = val_main_v14 (F := Ideal) (m ((c.tc : Thread nD τ).loc main_arg1)) := by
  have h0 := first_positive m ρ c
  have h1 := first_rsqrt m ρ c
  have h2 := first_zero m ρ c
  show StableHlo.after hostOps0_1 (W1 m ρ c) (Proc.devRef .tc main_v14) = _
  generalize W1 m ρ c = Wv at h0 h1 h2 ⊢
  after_results
  rw [h0, h1, h2]
  simp only [toBuf_v14, ofBuf_v12, ofBuf_v13, ofBuf_call0_v1, toBuf_call0_v1, ofBuf_call0_v0, toBuf_call0_v0, ofBuf_cst_2]
  rfl

theorem second_src (c : Dev nD) : W2 m ρ c (Proc.devRef .tc main_v3) = val_main_v3 (F := Ideal) (m ((c.tc : Thread nD τ).loc main_arg1)) := by
  have h0 := first_src m ρ c
  show StableHlo.after hostOps0_1 (W1 m ρ c) (Proc.devRef .tc main_v3) = _
  generalize W1 m ρ c = Wv at h0 ⊢
  after_results
  exact h0

theorem second_dst (c : Dev nD) : W2 m ρ c (Proc.devRef .tc main_v6) = val_main_v6 (F := Ideal) (m ((c.tc : Thread nD τ).loc main_arg1)) := by
  have h0 := first_dst m ρ c
  show StableHlo.after hostOps0_1 (W1 m ρ c) (Proc.devRef .tc main_v6) = _
  generalize W1 m ρ c = Wv at h0 ⊢
  after_results
  exact h0

/-! ## At the first pipeline's entry: the edge lists, the edge norms, and the arguments as launched -/

theorem entry_norm (c : Dev nD) : W3 m ρ c (Proc.devRef .tc main_v29) = val_main_v29 (F := Ideal) (m ((c.tc : Thread nD τ).loc main_arg1)) := by
  have h0 := second_dinv m ρ c
  have h1 := second_src m ρ c
  have h2 := second_dst m ρ c
  show StableHlo.after hostOps0_2 (W2 m ρ c) (Proc.devRef .tc main_v29) = _
  generalize W2 m ρ c = Wv at h0 h1 h2 ⊢
  after_results
  rw [h0, h1, h2]
  rfl

theorem entry_src (c : Dev nD) : W3 m ρ c (Proc.devRef .tc main_v3) = val_main_v3 (F := Ideal) (m ((c.tc : Thread nD τ).loc main_arg1)) := by
  have h0 := second_src m ρ c
  show StableHlo.after hostOps0_2 (W2 m ρ c) (Proc.devRef .tc main_v3) = _
  generalize W2 m ρ c = Wv at h0 ⊢
  after_results
  exact h0

theorem entry_dst (c : Dev nD) : W3 m ρ c (Proc.devRef .tc main_v6) = val_main_v6 (F := Ideal) (m ((c.tc : Thread nD τ).loc main_arg1)) := by
  have h0 := second_dst m ρ c
  show StableHlo.after hostOps0_2 (W2 m ρ c) (Proc.devRef .tc main_v6) = _
  generalize W2 m ρ c = Wv at h0 ⊢
  after_results
  exact h0

theorem entry_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results <;> rfl

theorem entry_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results <;> rfl

theorem entry_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results <;> rfl

theorem entry_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results <;> rfl

theorem entry_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results <;> rfl

theorem entry_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results <;> rfl

theorem entry_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results <;> rfl

end Cert.KernelIdeal.Fold

end
-- ==== Proof.FoldKeep.lean ====
/-
  What the segments after the first pipeline's entry keep. The edge sources, targets and norms are computed once,
  before the first pipeline; every layer's host operations read them again, and no later host operation and no
  pipeline writes them. The same holds of each weight and bias argument until the segment that reads it.
-/
import proofs.«122126_j65240553226643_1_alg».proof.Proof.Gen.KernelIdeal.Frame
import Idealize.ShloMosaic.Lib.StableHlo.Run

set_option maxRecDepth 16384
set_option maxHeartbeats 2000000

noncomputable section

namespace Cert.KernelIdeal.Fold

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg)

theorem at5_v3 (c : Dev nD) : W5 m ρ c (Proc.devRef .tc main_v3) = W3 m ρ c (Proc.devRef .tc main_v3) :=
  (StableHlo.after_of_forall_not_mem (b := Proc.devRef .tc main_v3) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_of_ne m ρ c main_v3 (by decide))
theorem at7_v3 (c : Dev nD) : W7 m ρ c (Proc.devRef .tc main_v3) = W3 m ρ c (Proc.devRef .tc main_v3) :=
  (W7_of_ne m ρ c main_v3 (by decide)).trans ((W6_of_ne m ρ c main_v3 (by decide)).trans (at5_v3 m ρ c))
theorem at8_v3 (c : Dev nD) : W8 m ρ c (Proc.devRef .tc main_v3) = W3 m ρ c (Proc.devRef .tc main_v3) :=
  (StableHlo.after_of_forall_not_mem (b := Proc.devRef .tc main_v3) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (at7_v3 m ρ c)
theorem at10_v3 (c : Dev nD) : W10 m ρ c (Proc.devRef .tc main_v3) = W3 m ρ c (Proc.devRef .tc main_v3) :=
  (W10_of_ne m ρ c main_v3 (by decide)).trans ((W9_of_ne m ρ c main_v3 (by decide)).trans (at8_v3 m ρ c))

theorem at5_v6 (c : Dev nD) : W5 m ρ c (Proc.devRef .tc main_v6) = W3 m ρ c (Proc.devRef .tc main_v6) :=
  (StableHlo.after_of_forall_not_mem (b := Proc.devRef .tc main_v6) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_of_ne m ρ c main_v6 (by decide))
theorem at7_v6 (c : Dev nD) : W7 m ρ c (Proc.devRef .tc main_v6) = W3 m ρ c (Proc.devRef .tc main_v6) :=
  (W7_of_ne m ρ c main_v6 (by decide)).trans ((W6_of_ne m ρ c main_v6 (by decide)).trans (at5_v6 m ρ c))
theorem at8_v6 (c : Dev nD) : W8 m ρ c (Proc.devRef .tc main_v6) = W3 m ρ c (Proc.devRef .tc main_v6) :=
  (StableHlo.after_of_forall_not_mem (b := Proc.devRef .tc main_v6) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (at7_v6 m ρ c)
theorem at10_v6 (c : Dev nD) : W10 m ρ c (Proc.devRef .tc main_v6) = W3 m ρ c (Proc.devRef .tc main_v6) :=
  (W10_of_ne m ρ c main_v6 (by decide)).trans ((W9_of_ne m ρ c main_v6 (by decide)).trans (at8_v6 m ρ c))

theorem at5_v29 (c : Dev nD) : W5 m ρ c (Proc.devRef .tc main_v29) = W3 m ρ c (Proc.devRef .tc main_v29) :=
  (StableHlo.after_of_forall_not_mem (b := Proc.devRef .tc main_v29) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_of_ne m ρ c main_v29 (by decide))
theorem at7_v29 (c : Dev nD) : W7 m ρ c (Proc.devRef .tc main_v29) = W3 m ρ c (Proc.devRef .tc main_v29) :=
  (W7_of_ne m ρ c main_v29 (by decide)).trans ((W6_of_ne m ρ c main_v29 (by decide)).trans (at5_v29 m ρ c))
theorem at8_v29 (c : Dev nD) : W8 m ρ c (Proc.devRef .tc main_v29) = W3 m ρ c (Proc.devRef .tc main_v29) :=
  (StableHlo.after_of_forall_not_mem (b := Proc.devRef .tc main_v29) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (at7_v29 m ρ c)
theorem at10_v29 (c : Dev nD) : W10 m ρ c (Proc.devRef .tc main_v29) = W3 m ρ c (Proc.devRef .tc main_v29) :=
  (W10_of_ne m ρ c main_v29 (by decide)).trans ((W9_of_ne m ρ c main_v29 (by decide)).trans (at8_v29 m ρ c))

theorem at5_arg4 (c : Dev nD) : W5 m ρ c (Proc.devRef .tc main_arg4) = W3 m ρ c (Proc.devRef .tc main_arg4) :=
  (StableHlo.after_of_forall_not_mem (b := Proc.devRef .tc main_arg4) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_of_ne m ρ c main_arg4 (by decide))
theorem at6_arg4 (c : Dev nD) : W6 m ρ c (Proc.devRef .tc main_arg4) = W3 m ρ c (Proc.devRef .tc main_arg4) :=
  (W6_of_ne m ρ c main_arg4 (by decide)).trans (at5_arg4 m ρ c)

theorem at5_arg5 (c : Dev nD) : W5 m ρ c (Proc.devRef .tc main_arg5) = W3 m ρ c (Proc.devRef .tc main_arg5) :=
  (StableHlo.after_of_forall_not_mem (b := Proc.devRef .tc main_arg5) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_of_ne m ρ c main_arg5 (by decide))
theorem at7_arg5 (c : Dev nD) : W7 m ρ c (Proc.devRef .tc main_arg5) = W3 m ρ c (Proc.devRef .tc main_arg5) :=
  (W7_of_ne m ρ c main_arg5 (by decide)).trans ((W6_of_ne m ρ c main_arg5 (by decide)).trans (at5_arg5 m ρ c))

theorem at5_arg6 (c : Dev nD) : W5 m ρ c (Proc.devRef .tc main_arg6) = W3 m ρ c (Proc.devRef .tc main_arg6) :=
  (StableHlo.after_of_forall_not_mem (b := Proc.devRef .tc main_arg6) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_of_ne m ρ c main_arg6 (by decide))
theorem at7_arg6 (c : Dev nD) : W7 m ρ c (Proc.devRef .tc main_arg6) = W3 m ρ c (Proc.devRef .tc main_arg6) :=
  (W7_of_ne m ρ c main_arg6 (by decide)).trans ((W6_of_ne m ρ c main_arg6 (by decide)).trans (at5_arg6 m ρ c))
theorem at8_arg6 (c : Dev nD) : W8 m ρ c (Proc.devRef .tc main_arg6) = W3 m ρ c (Proc.devRef .tc main_arg6) :=
  (StableHlo.after_of_forall_not_mem (b := Proc.devRef .tc main_arg6) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (at7_arg6 m ρ c)
theorem at9_arg6 (c : Dev nD) : W9 m ρ c (Proc.devRef .tc main_arg6) = W3 m ρ c (Proc.devRef .tc main_arg6) :=
  (W9_of_ne m ρ c main_arg6 (by decide)).trans (at8_arg6 m ρ c)

theorem at5_arg7 (c : Dev nD) : W5 m ρ c (Proc.devRef .tc main_arg7) = W3 m ρ c (Proc.devRef .tc main_arg7) :=
  (StableHlo.after_of_forall_not_mem (b := Proc.devRef .tc main_arg7) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (W4_of_ne m ρ c main_arg7 (by decide))
theorem at7_arg7 (c : Dev nD) : W7 m ρ c (Proc.devRef .tc main_arg7) = W3 m ρ c (Proc.devRef .tc main_arg7) :=
  (W7_of_ne m ρ c main_arg7 (by decide)).trans ((W6_of_ne m ρ c main_arg7 (by decide)).trans (at5_arg7 m ρ c))
theorem at8_arg7 (c : Dev nD) : W8 m ρ c (Proc.devRef .tc main_arg7) = W3 m ρ c (Proc.devRef .tc main_arg7) :=
  (StableHlo.after_of_forall_not_mem (b := Proc.devRef .tc main_arg7) _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (at7_arg7 m ρ c)
theorem at10_arg7 (c : Dev nD) : W10 m ρ c (Proc.devRef .tc main_arg7) = W3 m ρ c (Proc.devRef .tc main_arg7) :=
  (W10_of_ne m ρ c main_arg7 (by decide)).trans ((W9_of_ne m ρ c main_arg7 (by decide)).trans (at8_arg7 m ρ c))

end Cert.KernelIdeal.Fold

end
-- ==== Proof.KernelFold.lean ====
/-
  The fold through the kernel's segments, layer by layer. At every boundary the buffers the later segments read hold
  the reference's own stage of the same argument arrays: each matmul pipeline leaves the reference's product, each
  stretch of host operations the reference's aggregate (the same gather at the edges' sources, scaling by the edges'
  norms and scatter-add into the edges' targets, of the same operands), and each bias pipeline the reference's
  epilogue. The last pipeline's output is the program's result.
-/
import proofs.«122126_j65240553226643_1_alg».proof.Proof.Gen.KernelIdeal.Frame
import proofs.«122126_j65240553226643_1_alg».proof.Proof.Bridges
import proofs.«122126_j65240553226643_1_alg».proof.Proof.FoldEntry
import proofs.«122126_j65240553226643_1_alg».proof.Proof.FoldKeep
import Idealize.ShloMosaic.Lib.StableHlo.Run

set_option maxRecDepth 16384
set_option maxHeartbeats 2000000

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-! ## Layer 1 -/

theorem layer1_product (c : Dev nD) : W4 m ρ c (Proc.devRef .tc main_v30) = val_main_v30 (F := Ideal) (m ((c.tc : Thread nD τ).loc main_arg0)) (m ((c.tc : Thread nD τ).loc main_arg2)) := by
  refine (W4_arr m ρ c 2).trans ?_
  refine (Region.final0 (V3 m ρ) c).trans ?_
  show Region.product0 (W3 m ρ c (Proc.devRef .tc main_arg0)) (W3 m ρ c (Proc.devRef .tc main_arg2)) = _
  rw [entry_arg0 m ρ c, entry_arg2 m ρ c]
  exact Bridge.product0_eq _ _

/-- The aggregate the next epilogue reads: the host gathers the product's rows at the edges' sources, scales each by
    its edge's norm and sums them into the edges' targets — the reference's own stage of the same operands. -/
theorem layer1_aggregate (c : Dev nD) : W5 m ρ c (Proc.devRef .tc main_v43) = val_main_v43 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v43) = _
  after_results
  rw [layer1_product m ρ c, W4_of_ne m ρ c main_v3 (by decide), W4_of_ne m ρ c main_v6 (by decide), W4_of_ne m ρ c main_v29 (by decide), entry_src m ρ c, entry_dst m ρ c, entry_norm m ρ c]
  rfl

/-- The bias vector reshaped to a single row, as the next epilogue stages it. -/
theorem layer1_bias (c : Dev nD) : W5 m ρ c (Proc.devRef .tc main_v44) = shapeCast S1x128 (m ((c.tc : Thread nD τ).loc main_arg3)) shapeCasts_S128_S1x128 := by
  show StableHlo.after hostOps1 (W4 m ρ c) (Proc.devRef .tc main_v44) = _
  after_results
  rw [W4_of_ne m ρ c main_arg3 (by decide), entry_arg3 m ρ c]
  rfl

theorem layer1_activation (c : Dev nD) : W6 m ρ c (Proc.devRef .tc main_v45) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ?_
  refine (Region.final1 (V5 m ρ) c).trans ?_
  show Region.epilogue1 (W5 m ρ c (Proc.devRef .tc main_v43)) (W5 m ρ c (Proc.devRef .tc main_v44)) = _
  rw [layer1_aggregate m ρ c, layer1_bias m ρ c]
  exact Bridge.epilogue1_eq _ _ _ _ _

/-! ## Layer 2 -/

theorem layer2_product (c : Dev nD) : W7 m ρ c (Proc.devRef .tc main_v46) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  refine (Region.final2 (V6 m ρ) c).trans ?_
  show Region.product2 (W6 m ρ c (Proc.devRef .tc main_v45)) (W6 m ρ c (Proc.devRef .tc main_arg4)) = _
  rw [layer1_activation m ρ c, at6_arg4 m ρ c, entry_arg4 m ρ c]
  exact Bridge.product2_eq _ _ _ _ _

/-- The aggregate the next epilogue reads: the host gathers the product's rows at the edges' sources, scales each by
    its edge's norm and sums them into the edges' targets — the reference's own stage of the same operands. -/
theorem layer2_aggregate (c : Dev nD) : W8 m ρ c (Proc.devRef .tc main_v59) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W7 m ρ c) (Proc.devRef .tc main_v59) = _
  after_results
  rw [layer2_product m ρ c, at7_v3 m ρ c, at7_v6 m ρ c, at7_v29 m ρ c, entry_src m ρ c, entry_dst m ρ c, entry_norm m ρ c]
  rfl

/-- The bias vector reshaped to a single row, as the next epilogue stages it. -/
theorem layer2_bias (c : Dev nD) : W8 m ρ c (Proc.devRef .tc main_v60) = shapeCast S1x128 (m ((c.tc : Thread nD τ).loc main_arg5)) shapeCasts_S128_S1x128 := by
  show StableHlo.after hostOps3 (W7 m ρ c) (Proc.devRef .tc main_v60) = _
  after_results
  rw [at7_arg5 m ρ c, entry_arg5 m ρ c]
  rfl

theorem layer2_activation (c : Dev nD) : W9 m ρ c (Proc.devRef .tc main_v61) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ?_
  refine (Region.final3 (V8 m ρ) c).trans ?_
  show Region.epilogue3 (W8 m ρ c (Proc.devRef .tc main_v59)) (W8 m ρ c (Proc.devRef .tc main_v60)) = _
  rw [layer2_aggregate m ρ c, layer2_bias m ρ c]
  exact Bridge.epilogue3_eq _ _ _ _ _ _ _

/-! ## Layer 3 -/

theorem layer3_product (c : Dev nD) : W10 m ρ c (Proc.devRef .tc main_v62) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W10_arr m ρ c 2).trans ?_
  refine (Region.final4 (V9 m ρ) c).trans ?_
  show Region.product4 (W9 m ρ c (Proc.devRef .tc main_v61)) (W9 m ρ c (Proc.devRef .tc main_arg6)) = _
  rw [layer2_activation m ρ c, at9_arg6 m ρ c, entry_arg6 m ρ c]
  exact Bridge.product4_eq _ _ _ _ _ _ _

/-- The aggregate the next epilogue reads: the host gathers the product's rows at the edges' sources, scales each by
    its edge's norm and sums them into the edges' targets — the reference's own stage of the same operands. -/
theorem layer3_aggregate (c : Dev nD) : W11 m ρ c (Proc.devRef .tc main_v75) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after hostOps5 (W10 m ρ c) (Proc.devRef .tc main_v75) = _
  after_results
  rw [layer3_product m ρ c, at10_v3 m ρ c, at10_v6 m ρ c, at10_v29 m ρ c, entry_src m ρ c, entry_dst m ρ c, entry_norm m ρ c]
  rfl

/-- The bias vector reshaped to a single row, as the next epilogue stages it. -/
theorem layer3_bias (c : Dev nD) : W11 m ρ c (Proc.devRef .tc main_v76) = shapeCast S1x64 (m ((c.tc : Thread nD τ).loc main_arg7)) shapeCasts_S64_S1x64 := by
  show StableHlo.after hostOps5 (W10 m ρ c) (Proc.devRef .tc main_v76) = _
  after_results
  rw [at10_arg7 m ρ c, entry_arg7 m ρ c]
  rfl

/-- THE RESULT: at the return the result buffer holds the reference's last stage of the argument arrays. -/
theorem result (c : Dev nD) : W12 m ρ c (Proc.devRef .tc main_v77) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_arr m ρ c 2).trans ?_
  refine (Region.final5 (V11 m ρ) c).trans ?_
  show Region.epilogue5 (W11 m ρ c (Proc.devRef .tc main_v75)) (W11 m ρ c (Proc.devRef .tc main_v76)) = _
  rw [layer3_aggregate m ρ c, layer3_bias m ρ c]
  exact Bridge.epilogue5_eq _ _ _ _ _ _ _ _ _

end Cert.KernelIdeal.Fold

end
-- ==== Proof.lean ====
/-
  A three-layer graph convolution on 100000 nodes and 1.6 million edges (plus one self-loop per node): each layer is
  h ↦ scatter-add over the edges' targets of norm(e) · (h·W)[source(e)], plus a bias, and the first two layers clamp
  at zero. The kernel computes each dense product h·W and each bias(+clamp) epilogue in a pipeline of ten blocks of
  10000 rows (the products with both operands narrowed to bf16), and leaves the edge norms, the gather and the
  scatter-add to the same host operations the reference uses. On the extended reals the narrowing is the identity,
  a block product into a zero accumulator is the reference's `dot_general` restricted to the block's rows, and a bias
  row repeated down a block is the reference's two-step broadcast; so at every boundary between the kernel's segments
  the live buffers hold the reference's own stage of the same argument arrays (Proof/KernelFold.lean), and the two
  programs end with equal results. No law beyond reindexing finite sums is used, so the precondition is never opened.
-/
import proofs.«122126_j65240553226643_1_alg».proof.Defs
import proofs.«122126_j65240553226643_1_alg».proof.Proof.Gen.Kernel
import proofs.«122126_j65240553226643_1_alg».proof.Proof.Gen.Kernel.Skeleton
import proofs.«122126_j65240553226643_1_alg».proof.Proof.Gen.Kernel.Launch
import proofs.«122126_j65240553226643_1_alg».proof.Proof.Gen.Kernel.Points
import proofs.«122126_j65240553226643_1_alg».proof.Proof.Gen.Kernel.Frame
import proofs.«122126_j65240553226643_1_alg».proof.Proof.Gen.KernelIdeal
import proofs.«122126_j65240553226643_1_alg».proof.Proof.Gen.KernelIdeal.Skeleton
import proofs.«122126_j65240553226643_1_alg».proof.Proof.Gen.KernelIdeal.Launch
import proofs.«122126_j65240553226643_1_alg».proof.Proof.Gen.KernelIdeal.Points
import proofs.«122126_j65240553226643_1_alg».proof.Proof.Gen.KernelIdeal.Frame
import proofs.«122126_j65240553226643_1_alg».proof.Proof.Gen.ReferenceIdeal
import proofs.«122126_j65240553226643_1_alg».proof.Proof.Gen.Pre_finite_inputs
import proofs.«122126_j65240553226643_1_alg».proof.Proof.RefRun
import proofs.«122126_j65240553226643_1_alg».proof.Proof.RefRead
import proofs.«122126_j65240553226643_1_alg».proof.Proof.KernelRun
import proofs.«122126_j65240553226643_1_alg».proof.Proof.KernelFold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- Both programs end with the reference's last stage of the (agreeing) argument arrays in their result buffers. -/
theorem algebraic : Cert.algebraic_KernelIdeal_ReferenceIdeal := by
  intro m ρ m' ρ' _ hagree
  refine ⟨fun c => Cert.ReferenceIdeal.ReadP.val_main_v82 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result m ρ c), (h c).2⟩)
      (Cert.KernelIdeal.Val.run_fold (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v82_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
